-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S512x128 : Shape := ⟨2, ![512, 128]⟩
abbrev S1 : Shape := ⟨1, ![1]⟩
abbrev S10x512 : Shape := ⟨2, ![10, 512]⟩
abbrev S10 : Shape := ⟨1, ![10]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1 : S_.BroadcastsInDim S1 (![] : Fin 0 → Fin S1.rank)
  reducesTo_S1_S_d0 : S1.ReducesTo [0] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg2 : FVec F S1 .f32) (main_arg4 : FVec F S10 .f32) (main_v13 : IVec S_ 1) (main_v16 : IVec S10x512 1) : IVec S_ 1 :=
  let main_c_5 : IVec S_ 1 := constantI S_ 1 1#1
  let main_v17 : IVec S_ 1 := (fun x v => Host.reduce IntOp.andi x v reducesTo_S10x512_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_cst_8 : FVec F S_ .f32 := constant S_ .f32 0x00000000#32
  let main_v24 : FVec F S1 .f32 := broadcastInDim S1 ![] bcast_S_S1 main_cst_8
  let main_v25 : IVec S1 1 := cmpf .une main_arg2 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v23 main_v26
  main_v27

def fn {F : FTy → Type} [FloatOps F] (main_arg0 : FVec F S2048x128 .f32) (main_arg1 : FVec F S512x128 .f32) (main_arg2 : FVec F S1 .f32) (main_arg3 : FVec F S10x512 .f32) (main_arg4 : FVec F S10 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S10x512 .f32 := Host.absf main_arg3
  let main_cst_4 : FVec F S_ .f32 := constant S_ .f32 0x7F800000#32
  let main_v15 : FVec F S10x512 .f32 := broadcastInDim S10x512 ![] bcast_S_S10x512 main_cst_4
  let main_v16 : IVec S10x512 1 := cmpf .olt main_v14 main_v15
  fn_part1 (F := F) main_arg2 main_arg4 main_v13 main_v16
-- ==== Kernel.lean ====
abbrev S2048x128 : Shape := ⟨2, ![2048, 128]⟩
abbrev S512x128 : Shape := ⟨2, ![512, 128]⟩
abbrev S1 : Shape := ⟨1, ![1]⟩
abbrev S10x512 : Shape := ⟨2, ![10, 512]⟩
abbrev S10 : Shape := ⟨1, ![10]⟩
abbrev S128x512 : Shape := ⟨2, ![128, 512]⟩
abbrev S512x10 : Shape := ⟨2, ![512, 10]⟩
abbrev S1x10 : Shape := ⟨2, ![1, 10]⟩
abbrev S1x1 : Shape := ⟨2, ![1, 1]⟩
abbrev S2048x10 : Shape := ⟨2, ![2048, 10]⟩
abbrev S1024x128 : Shape := ⟨2, ![1024, 128]⟩
abbrev S1024x10 : Shape := ⟨2, ![1024, 10]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S1, .f32⟩
  | .hbm, ⟨3, _⟩ => ⟨S10x512, .f32⟩
  | .hbm, ⟨4, _⟩ => ⟨S10, .f32⟩
  | .hbm, ⟨5, _⟩ => ⟨S128x512, .f32⟩
  | .hbm, ⟨6, _⟩ => ⟨S512x10, .f32⟩
  | .hbm, ⟨7, _⟩ => ⟨S1x10, .f32⟩
  | .hbm, ⟨8, _⟩ => ⟨S1x1, .f32⟩
  | .hbm, ⟨9, _⟩ => ⟨S2048x10, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S512x10, .f32⟩
  | .local _ .vmem, ⟨4, _⟩ => ⟨S1x10, .f32⟩
  | .local _ .vmem, ⟨5, _⟩ => ⟨S1x1, .f32⟩
  | .local _ .vmem, ⟨6, _⟩ => ⟨S1024x10, .f32⟩
  | .local _ .vmem, ⟨7, _⟩ => ⟨S1024x10, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x128_S128x512_1_0 : S512x128.Transposes [1, 0] S128x512
  transposes_S10x512_S512x10_1_0 : S10x512.Transposes [1, 0] S512x10
  shapeCasts_S10_S1x10 : S10.ShapeCasts S1x10
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x128_S1024 : S1024x128.Reduces [1] S1024
  shapeCasts_S1024_S1024x1 : S1024.ShapeCasts S1024x1
  reduces_S128x512_S512 : S128x512.Reduces [0] S512
  shapeCasts_S512_S1x512 : S512.ShapeCasts S1x512
  broadcasts_S1024x1_S1024x512 : S1024x1.Broadcasts S1024x512
  broadcasts_S1x512_S1024x512 : S1x512.Broadcasts S1024x512
  broadcasts_S1x1_S1024x512 : S1x1.Broadcasts S1024x512
  bitsLt_bf16_f32 : FTy.bits .bf16 < FTy.bits .f32
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x128_S128x512_S1024x512_1_0_0_1_n_n_wf : DotDims.WF S1024x128 S128x512 S1024x512 [1] [0] [0] [1] [] []
  dot_S1024x512_S512x10_S1024x10_1_0_0_1_n_n_wf : DotDims.WF S1024x512 S512x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x10.size a ≤ S512x10.size a
  hwx0_2 : ∀ i : grid0.Coords, EltTy.bits .f32 = 32 ∨ (Rect.block (s := S512x10) S512x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x10.size a ≤ S2048x10.size a
  hwx0_5 : ∀ i : grid0.Coords, EltTy.bits .f32 = 32 ∨ (Rect.block (s := S2048x10) S1024x10.size (cc0_transform_5 i) (hinb0_5 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x128 : Shape := ⟨2, ![2048, 128]⟩
abbrev S512x128 : Shape := ⟨2, ![512, 128]⟩
abbrev S1 : Shape := ⟨1, ![1]⟩
abbrev S10x512 : Shape := ⟨2, ![10, 512]⟩
abbrev S10 : Shape := ⟨1, ![10]⟩
abbrev S2048x1x128 : Shape := ⟨3, ![2048, 1, 128]⟩
abbrev S1x512x128 : Shape := ⟨3, ![1, 512, 128]⟩
abbrev S2048x512x128 : Shape := ⟨3, ![2048, 512, 128]⟩
abbrev S_ : Shape := ⟨0, ![]⟩
abbrev S2048x512 : Shape := ⟨2, ![2048, 512]⟩
abbrev S512x10 : Shape := ⟨2, ![512, 10]⟩
abbrev S2048x10 : Shape := ⟨2, ![2048, 10]⟩
abbrev S1x10 : Shape := ⟨2, ![1, 10]⟩

abbrev nBuf : Space → Nat
  | .hbm => 26
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S1, .f32⟩
  | .hbm, ⟨3, _⟩ => ⟨S10x512, .f32⟩
  | .hbm, ⟨4, _⟩ => ⟨S10, .f32⟩
  | .hbm, ⟨5, _⟩ => ⟨S2048x1x128, .f32⟩
  | .hbm, ⟨6, _⟩ => ⟨S1x512x128, .f32⟩
  | .hbm, ⟨7, _⟩ => ⟨S2048x512x128, .f32⟩
  | .hbm, ⟨8, _⟩ => ⟨S2048x512x128, .f32⟩
  | .hbm, ⟨9, _⟩ => ⟨S2048x512x128, .f32⟩
  | .hbm, ⟨10, _⟩ => ⟨S2048x512x128, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S512x10, .f32⟩
  | .hbm, ⟨22, _⟩ => ⟨S2048x10, .f32⟩
  | .hbm, ⟨23, _⟩ => ⟨S1x10, .f32⟩
  | .hbm, ⟨24, _⟩ => ⟨S2048x10, .f32⟩
  | .hbm, ⟨25, _⟩ => ⟨S2048x10, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S512x128_S1x512x128_1_2 : S512x128.BroadcastsInDim S1x512x128 (![1, 2] : Fin 2 → Fin S1x512x128.rank)
  bcast_S2048x1x128_S2048x512x128_0_1_2 : S2048x1x128.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  reducesTo_S2048x512x128_S2048x512_d2 : S2048x512x128.ReducesTo [2] S2048x512
  h_S_ : 0 < S_.numel
  shapeCasts_S1_S_ : S1.ShapeCasts S_
  bcast_S_S2048x512 : S_.BroadcastsInDim S2048x512 (![] : Fin 0 → Fin S2048x512.rank)
  transposes_S10x512_S512x10_1_0 : S10x512.Transposes [1, 0] S512x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  dot_S2048x512_S512x10_S2048x10_1_0_0_1_n_n_wf : DotDims.WF S2048x512 S512x10 S2048x10 [1] [0] [0] [1] [] []

variable [Facts₀]

def dot_S2048x512_S512x10_S2048x10_1_0_0_1_n_n : DotDims S2048x512 S512x10 S2048x10 where
  lhsContracting := [1]
  rhsContracting := [0]
  lhsNonContracting := [0]
  rhsNonContracting := [1]
  lhsBatch := []
  rhsBatch := []
  wf := dot_S2048x512_S512x10_S2048x10_1_0_0_1_n_n_wf

class Facts : Prop extends Facts₀ where

variable [Facts]
-- ==== Proof.LibSqDist.lean ====
/-
  Squared distances on the extended reals, for real data.

  For real vectors `X`, `C` over a finite index type the EXPANDED squared distance Σ X² + Σ C² − 2·Σ X·C and the DIRECT one
  Σ (X − C)² are the same real number (the binomial law, summed); being a sum of squares it is nonnegative, so a clamp below at 0
  leaves it alone. A Gaussian exponent is then taken two ways: the distance times the quotient −1 / ((2σ)σ), or the negated distance
  divided by 2·(σ·σ); for a nonzero real σ both are −d/(2σ²), because a quotient by a nonzero real is the product with its reciprocal.
  All of it needs the terms to be REAL: with an infinite coordinate the expansion meets ∞ − ∞, and at σ = 0 the two exponents part
  (0·(−1/0) against 0/0). Also here: the words of 2.0 and −1.0, the coercion of a finite real sum, and a one-entry array broadcast
  to a matrix.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.SqDist

open Idealize.ShloMosaic Idealize.ShloMosaic.ValueIdx

/-- The f32 word of `2.0` denotes the real 2. -/
theorem ofBits_two : Ideal.ofBits .f32 0x40000000#32 = ((2 : ℝ) : EReal) := by
  simp [Ideal.ofBits, Ideal.ieee, -EReal.coe_mul]; norm_num

/-- The f32 word of `-1.0` denotes the real −1. -/
theorem ofBits_negOne : Ideal.ofBits .f32 0xBF800000#32 = ((-1 : ℝ) : EReal) := by
  simp [Ideal.ofBits, Ideal.ieee, -EReal.coe_mul]; norm_num

/-- The coercion of a finite real sum is the sum of the coercions. -/
theorem coe_sum {α : Type} (t : Finset α) (g : α → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

variable {ι : Type} [Fintype ι]

/-- The direct squared distance of real vectors, taken on the extended reals, is the real Σ (X − C)². -/
theorem direct (X C : ι → ℝ) :
    ∑ f, ((X f : EReal) - (C f : EReal)) * ((X f : EReal) - (C f : EReal)) = ((∑ f, (X f - C f) * (X f - C f) : ℝ) : EReal) := by
  rw [coe_sum]; exact Finset.sum_congr rfl fun f _ => by rw [EReal.coe_mul, EReal.coe_sub]

/-- The expanded squared distance Σ X² + Σ C² − 2·Σ X·C of real vectors, taken on the extended reals, is the same real. -/
theorem expanded (X C : ι → ℝ) :
    (∑ f, (X f : EReal) * (X f : EReal)) + (∑ f, (C f : EReal) * (C f : EReal)) - ((2 : ℝ) : EReal) * (∑ f, (X f : EReal) * (C f : EReal))
      = ((∑ f, (X f - C f) * (X f - C f) : ℝ) : EReal) := by
  have hA : ∑ f, (X f : EReal) * (X f : EReal) = ((∑ f, X f * X f : ℝ) : EReal) := by
    rw [coe_sum]; exact Finset.sum_congr rfl fun f _ => (EReal.coe_mul _ _).symm
  have hB : ∑ f, (C f : EReal) * (C f : EReal) = ((∑ f, C f * C f : ℝ) : EReal) := by
    rw [coe_sum]; exact Finset.sum_congr rfl fun f _ => (EReal.coe_mul _ _).symm
  have hP : ∑ f, (X f : EReal) * (C f : EReal) = ((∑ f, X f * C f : ℝ) : EReal) := by
    rw [coe_sum]; exact Finset.sum_congr rfl fun f _ => (EReal.coe_mul _ _).symm
  have hbin : (∑ f, X f * X f) + (∑ f, C f * C f) - 2 * (∑ f, X f * C f) = ∑ f, (X f - C f) * (X f - C f) := by
    rw [Finset.mul_sum, ← Finset.sum_add_distrib, ← Finset.sum_sub_distrib]
    exact Finset.sum_congr rfl fun f _ => by ring
  rw [hA, hB, hP, ← hbin, EReal.coe_sub, EReal.coe_add, EReal.coe_mul]

/-- A sum of squares is nonnegative, so clamping it below at 0 changes nothing. -/
theorem clamp_idle (X C : ι → ℝ) :
    max ((∑ f, (X f - C f) * (X f - C f) : ℝ) : EReal) 0 = ((∑ f, (X f - C f) * (X f - C f) : ℝ) : EReal) :=
  max_eq_left (by exact_mod_cast Finset.sum_nonneg fun f _ => mul_self_nonneg (X f - C f))

/-- The Gaussian exponent two ways: for real `d` and nonzero real `σ`, d · (−1 / ((2σ)σ)) = (−d) / (2·(σ·σ)). -/
theorem scaled (d σ : ℝ) (hσ : σ ≠ 0) :
    (d : EReal) * Ideal.div ((-1 : ℝ) : EReal) (((2 : ℝ) : EReal) * (σ : EReal) * (σ : EReal))
      = Ideal.div (-(d : EReal)) (((2 : ℝ) : EReal) * ((σ : EReal) * (σ : EReal))) := by
  have h1 : ((2 : ℝ) : EReal) * (σ : EReal) * (σ : EReal) = ((2 * σ * σ : ℝ) : EReal) := by
    rw [EReal.coe_mul, EReal.coe_mul]
  have h2 : ((2 : ℝ) : EReal) * ((σ : EReal) * (σ : EReal)) = ((2 * (σ * σ) : ℝ) : EReal) := by
    rw [EReal.coe_mul, EReal.coe_mul]
  have hne1 : (2 * σ * σ : ℝ) ≠ 0 := by positivity
  have hne2 : (2 * (σ * σ) : ℝ) ≠ 0 := by positivity
  rw [h1, h2, Ideal.div_coe hne1, Ideal.div_coe hne2, ← EReal.coe_neg, ← EReal.coe_mul, ← EReal.coe_mul, ← EReal.coe_mul]
  congr 1
  field_simp

/-- A one-entry array `[1, 1]` broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib.SqDist

end
-- ==== Proof.RbfMath.lean ====
/-
  The mathematics of one output entry of a radial-basis-function layer, on the extended reals.

  For a row `x` of the inputs, centres `c h`, a width `s`, output weights `w h` and a bias `b`, the entry is
      Σ_h exp (−‖x − c h‖² / (2 s²)) · w h + b.
  Two spellings of the squared distance are set side by side: the DIRECT one, Σ_f (x f − c h f)², divided (after a
  negation) by 2·(s·s); and the EXPANDED one, Σ_f x f² + Σ_f c h f² − 2·Σ_f x f · c h f, clamped below at 0 and
  multiplied by the quotient −1 / ((2·s)·s). On real data with s ≠ 0 both are −‖x − c h‖²/(2s²): the expansion is
  the binomial law summed over f (it needs the terms to be real: an infinite term would make the difference
  ∞ − ∞), the clamp is idle because a sum of squares is nonnegative, and a quotient by a nonzero real is the product
  with its reciprocal. At s = 0 the two spellings part (0 · (−1/0) against 0/0), which is why s ≠ 0 is assumed.
  The weights and the bias are never opened: they may be any extended reals.
-/
import Idealize.ShloMosaic.PureOps.Ideal
import Idealize.ShloMosaic.PureOps.Ideal.Laws
import proofs.«177060_j45002667327625_2_alg».proof.Proof.LibSqDist

noncomputable section

namespace Cert.Rbf

open Idealize.ShloMosaic

variable {ι κ : Type} [Fintype ι] [Fintype κ]

/-- One output entry with the squared distance EXPANDED: `ct f h` is centre `h`'s coordinate `f` (the centres stored
    feature-major), `s` the width. -/
def expandedEntry (xr : ι → EReal) (ct : ι → κ → EReal) (w : κ → EReal) (b s : EReal) : EReal :=
  (∑ h, Ideal.exp (max (((∑ f, xr f * xr f) + (∑ f, ct f h * ct f h))
        - Ideal.ofBits .f32 0x40000000#32 * (∑ f, xr f * ct f h)) (Ideal.ofBits .f32 0x00000000#32)
      * Ideal.div (Ideal.ofBits .f32 0xBF800000#32) ((Ideal.ofBits .f32 0x40000000#32 * s) * s)) * w h) + b

/-- One output entry with the squared distance taken DIRECTLY: `c h f` is centre `h`'s coordinate `f`. -/
def directEntry (xr : ι → EReal) (c : κ → ι → EReal) (w : κ → EReal) (b s : EReal) : EReal :=
  (∑ h, Ideal.exp (Ideal.div (-(Ideal.ofBits .f32 0x00000000#32 + ∑ f, (xr f - c h f) * (xr f - c h f)))
      (Ideal.ofBits .f32 0x40000000#32 * (s * s))) * w h) + b

/-- On real rows and centres and a nonzero real width the two spellings are one number: centre by centre the exponents agree
    (the squared distance is one real either way, its clamp is idle, and the two scalings by the width coincide). -/
theorem expanded_eq_direct (xr : ι → EReal) (ct : ι → κ → EReal) (w : κ → EReal) (b s : EReal)
    (hx : ∀ f, ∃ r : ℝ, xr f = (r : EReal)) (hc : ∀ f h, ∃ r : ℝ, ct f h = (r : EReal))
    (hs : ∃ r : ℝ, s = (r : EReal) ∧ r ≠ 0) :
    expandedEntry xr ct w b s = directEntry xr (fun h f => ct f h) w b s := by
  obtain ⟨σ, rfl, hσ⟩ := hs
  choose X hX using hx
  choose C hC using hc
  unfold expandedEntry directEntry
  refine congrArg (· + b) (Finset.sum_congr rfl fun h _ => congrArg (· * w h) (congrArg Ideal.exp ?_))
  simp only [hX, hC]
  rw [Cert.Lib.SqDist.ofBits_two, Cert.Lib.SqDist.ofBits_negOne, Ideal.ofBits_zero_f32, zero_add,
    Cert.Lib.SqDist.expanded X (fun f => C f h), Cert.Lib.SqDist.direct X (fun f => C f h),
    Cert.Lib.SqDist.clamp_idle X (fun f => C f h)]
  exact Cert.Lib.SqDist.scaled _ σ hσ

end Cert.Rbf

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«177060_j45002667327625_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«177060_j45002667327625_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«177060_j45002667327625_2_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.KernelEntry.lean ====
/-
  The kernel body's one stored value, read at an entry.

  At row `p` of the block and output column `q` the body holds
      Σ_h exp (max (Σ_f x[p,f]² + Σ_f cT[f,h]² − 2·Σ_f x[p,f]·cT[f,h], 0) · (−1 / ((2·s)·s))) · wT[h,q] + b[0,q]:
  the squared norm of the row (a sum along the last axis, kept as a column), the squared norms of the centres (a sum along the
  first axis of the feature-major centres, kept as a row), their cross products (a matrix product), the clamp, the scaling by
  the width, the exponential, and the output layer (a second matrix product, plus the bias row). Changes of float format are
  the identity on the extended reals. This is `expandedEntry` of the row, the centres, the weights' column, the bias and the width.
-/
import proofs.«177060_j45002667327625_2_alg».proof.Proof.Gen.KernelIdeal.Skeleton
import proofs.«177060_j45002667327625_2_alg».proof.Proof.RbfMath
import proofs.«177060_j45002667327625_2_alg».proof.Proof.LibDotCols
import proofs.«177060_j45002667327625_2_alg».proof.Proof.LibColumns
import proofs.«177060_j45002667327625_2_alg».proof.Proof.LibLaneRows
import proofs.«177060_j45002667327625_2_alg».proof.Proof.LibLaneCols
import Idealize.ShloMosaic.Lib.ValueIdx
import Idealize.ShloMosaic.Lib.ValueLayout
import Idealize.ShloMosaic.Lib.Pipeline.Value
import Idealize.ShloMosaic.PureOps.Ideal.Laws

noncomputable section

namespace Cert.Rbf

open Idealize.ShloMosaic Idealize.ShloMosaic.ValueIdx

open Cert.KernelIdeal Cert.KernelIdeal.Gen in
/-- The body's stored value at `(p, q)` is the expanded spelling of the entry. -/
theorem pay_entry (x0 : Vec Ideal S1024x128 .f32) (x1 : Vec Ideal S128x512 .f32) (x3 : Vec Ideal S512x10 .f32)
    (x5 : Vec Ideal S1x10 .f32) (x7 : Vec Ideal S1x1 .f32) (p : Fin 1024) (q : Fin 10) :
    k0_pay1 (F := Ideal) x0 x1 x3 x5 x7 (ix2 p q)
      = expandedEntry (fun f : Fin 128 => x0 (ix2 p f)) (fun (f : Fin 128) (h : Fin 512) => x1 (ix2 f h))
          (fun h : Fin 512 => x3 (ix2 h q)) (x5 (ix2 (0 : Fin 1) q)) (x7 (ix2 (0 : Fin 1) (0 : Fin 1))) := by
  unfold k0_pay1 expandedEntry
  simp only [shapeCast_self]
  rw [addf_apply, broadcastTo_1b_ab_apply]
  refine congrArg (· + x5 (ix2 (0 : Fin 1) q)) ?_
  refine (Cert.Lib.DotCols.matmul_cols_apply dot_S1024x512_S512x10_S1024x10_1_0_0_1_n_n rfl none _ _ p q).trans ?_
  refine Finset.sum_congr rfl fun h _ => ?_
  refine congrArg (· * x3 (ix2 h q)) (congrArg Ideal.exp ?_)
  simp only [mulf_apply, maximumf_apply, subf_apply, addf_apply, divf_apply, broadcast_apply]
  rw [Cert.Lib.SqDist.broadcastTo_11_ab_apply, broadcastTo_a1_ab_apply, broadcastTo_1b_ab_apply, shapeCast_a_a1_apply, shapeCast_a_1a_apply]
  refine congrArg₂ (fun u v => max u (Ideal.ofBits .f32 0x00000000#32) * v) ?_ rfl
  refine congrArg₂ (fun u v => u - Ideal.ofBits .f32 0x40000000#32 * v) (congrArg₂ (· + ·) ?_ ?_) ?_
  · exact LaneRows.multiReduction_add_rows (mulf x0 x0) _ _ _ _ p
  · exact LaneCols.multiReduction_add_cols (mulf x1 x1) _ _ _ _ h
  · exact Cert.Lib.DotCols.matmul_cols_apply dot_S1024x128_S128x512_S1024x512_1_0_0_1_n_n rfl _ x0 x1 p h

end Cert.Rbf

end
-- ==== Proof.Blocks.lean ====
/-
  From blocks to the whole output array.

  The grid has two points; point `t` stages rows 1024·t … 1024·t + 1023 of the inputs (window 0), the whole feature-major
  centres, the whole transposed weights, the bias row and the width (windows 1–4, every point the same block), and writes
  back rows 1024·t … 1024·t + 1023 of the output (window 5). An output entry depends on ONE row of the inputs, so what point
  `t` writes back is the restriction to its rows of one function of the staged arrays, `stagedOut`; the two blocks cover all 2048
  rows, so the output array ends holding `stagedOut` of the staged arrays.
-/
import proofs.«177060_j45002667327625_2_alg».proof.Proof.Gen.KernelIdeal.Value
import proofs.«177060_j45002667327625_2_alg».proof.Proof.KernelEntry
import Idealize.ShloMosaic.Lib.Pipeline.Value
import Idealize.ShloMosaic.Lib.ValueIdx

noncomputable section

namespace Cert.Rbf

open Cert.KernelIdeal Cert.KernelIdeal.Gen Idealize.ShloMosaic Idealize.ShloMosaic.TcCoe Idealize.SL.Sem Idealize.ShloMosaic.ValueIdx
open Idealize.ShloMosaic.Pipeline (Dat)

/-- The output array as one function of the arrays the windows stage: entry `(r, o)` is the expanded spelling over row `r` of
    the inputs `X`, the feature-major centres `CT`, column `o` of the transposed weights `WT`, the bias row `B2` and the width `Sg`. -/
def stagedOut (X : S2048x128.Idx → EReal) (CT : S128x512.Idx → EReal) (WT : S512x10.Idx → EReal) (B2 : S1x10.Idx → EReal)
    (Sg : S1x1.Idx → EReal) : S2048x10.Idx → EReal := fun i =>
  expandedEntry (fun f : Fin 128 => X (ix2 (⟨(i 0).val, idx2_lt0 i⟩ : Fin 2048) f)) (fun (f : Fin 128) (h : Fin 512) => CT (ix2 f h))
    (fun h : Fin 512 => WT (ix2 h (⟨(i 1).val, idx2_lt1 i⟩ : Fin 10))) (B2 (ix2 (0 : Fin 1) (⟨(i 1).val, idx2_lt1 i⟩ : Fin 10)))
    (Sg (ix2 (0 : Fin 1) (0 : Fin 1)))

variable (m : (ℓ : Loc nD τ sig) → Buf (Elt Ideal) ℓ) (ρ : Dev nD → PrngReg)

theorem origin2 : (![0, 0] : Fin 2 → Nat) = fun _ => 0 := funext fun a => by fin_cases a <;> rfl

/-- The printed index maps, decided over the two grid points: the input rows move with the output rows (block index `t`), every
    other window stays at block 0. -/
theorem index_maps : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `stagedOut` of the staged arrays. -/
theorem flushed_eq (c : Dev nD) (t : Fin cfg0.N) :
    (dats m 0 c).flushed 5 t = ((cfg0.win 5).blk t).view.read (Elt Ideal)
      (stagedOut (V m c main_arg0) (V m c main_v0) (V m c main_v1) (V m c main_v2) (V m c main_v3)) := by
  rw [Cert.KernelIdeal.Value.flushed5]
  unfold out0_5
  rw [View.canon_unit_zero origin2]
  simp only [View.ld_unit_zero (S := S1024x128) origin2, View.ld_unit_zero (S := S128x512) origin2,
    View.ld_unit_zero (S := S512x10) origin2, View.ld_unit_zero (S := S1x10) origin2, View.ld_unit_zero (S := S1x1) origin2]
  obtain ⟨e00, e01, e10, e11, e20, e21, e30, e31, e40, e41, e50, e51⟩ := index_maps t
  funext j
  obtain ⟨p, q, rfl⟩ : ∃ (p : Fin 1024) (q : Fin 10), j = ix2 p q := ⟨j 0, j 1, eq_ix2 j⟩
  show k0_pay1 (iblk m c 0 t) (iblk m c 1 t) (iblk m c 2 t) (iblk m c 3 t) (iblk m c 4 t) (ix2 p q)
      = stagedOut (V m c main_arg0) (V m c main_v0) (V m c main_v1) (V m c main_v2) (V m c main_v3)
          (((cfg0.win 5).blk t).view.emb (ix2 p q))
  refine (pay_entry _ _ _ _ _ p q).trans ?_
  unfold stagedOut
  congr 1
  · -- the row of the inputs: block row p of point t is array row 1024·t + p
    funext f
    show V m c main_arg0 (((cfg0.win 0).blk t).view.emb (ix2 p f)) = V m c main_arg0 _
    refine congrArg (V m c main_arg0) (funext fun a => Fin.ext ?_)
    match a with
    | ⟨0, _⟩ => show win0_0.index t (0 : Fin 2) * 1024 + 1 * p.val = win0_5.index t (0 : Fin 2) * 1024 + 1 * p.val; omega
    | ⟨1, _⟩ => show win0_0.index t (1 : Fin 2) * 128 + 1 * f.val = f.val; omega
  · -- the centres: the whole array at every point
    funext f h
    show V m c main_v0 (((cfg0.win 1).blk t).view.emb (ix2 f h)) = V m c main_v0 _
    refine congrArg (V m c main_v0) (funext fun a => Fin.ext ?_)
    match a with
    | ⟨0, _⟩ => show win0_1.index t (0 : Fin 2) * 128 + 1 * f.val = f.val; omega
    | ⟨1, _⟩ => show win0_1.index t (1 : Fin 2) * 512 + 1 * h.val = h.val; omega
  · -- the transposed weights: the whole array, read at the output's column
    funext h
    show V m c main_v1 (((cfg0.win 2).blk t).view.emb (ix2 h q)) = V m c main_v1 _
    refine congrArg (V m c main_v1) (funext fun a => Fin.ext ?_)
    match a with
    | ⟨0, _⟩ => show win0_2.index t (0 : Fin 2) * 512 + 1 * h.val = h.val; omega
    | ⟨1, _⟩ => show win0_2.index t (1 : Fin 2) * 10 + 1 * q.val = win0_5.index t (1 : Fin 2) * 10 + 1 * q.val; omega
  -- (the bias row and the width: their windows stage block (0, 0) at every point, and the two reads are equal by unfolding)

/-- An index of the output array is in point `t`'s block iff each coordinate is in the block's range on its axis. -/
theorem mem_block (t : Fin cfg0.N) (i : S2048x10.Idx) :
    i ∈ ((cfg0.win 5).blk t).view.set ↔ ∀ a : Fin 2, win0_5.index t a * S1024x10.size a ≤ (i a).val
      ∧ (i a).val < win0_5.index t a * S1024x10.size a + S1024x10.size a := by
  show i ∈ ((View.whole main_v4).slice (win0_5.rect t)).set ↔ _
  rw [View.set_slice_whole, Rect.mem_set_unit]
  exact Iff.rfl

/-- Every output index is in some point's block: row `r` is written back by point `r / 1024`. -/
theorem covered (i : S2048x10.Idx) :
    ∃ t : Fin cfg0.N, (cfg0.win 5).flush t = true ∧ i ∈ ((cfg0.win 5).blk t).view.set := by
  have hi0 : (i 0).val < 2048 := (i 0).isLt
  have hi1 : (i 1).val < 10 := (i 1).isLt
  have hlt : (i 0).val / 1024 < 2 := by omega
  obtain ⟨t, ht⟩ : ∃ t : Fin cfg0.N, t.val = (i 0).val / 1024 := ⟨⟨(i 0).val / 1024, hlt⟩, rfl⟩
  obtain ⟨-, -, -, -, -, -, -, -, -, -, e50, e51⟩ := index_maps t
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 10 ≤ (i 1).val ∧ (i 1).val < win0_5.index t (1 : Fin 2) * 10 + 10
    omega

/-- The output array after the run is `stagedOut` of the staged arrays. -/
theorem array_eq (c : Dev nD) :
    (dats m 0 c).arrAt 5 cfg0.N
      = stagedOut (V m c main_arg0) (V m c main_v0) (V m c main_v1) (V m c main_v2) (V m c main_v3) :=
  (dats m 0 c).arrAt_eq_of_cover 5 _ (fun t _ => flushed_eq m c t) covered

end Cert.Rbf

end
-- ==== Proof.HostSide.lean ====
/-
  What the four host operations before the kernel's one region leave in the arrays its windows stage.

  The program transposes the centres ([512,128] to [128,512]) and the output weights ([10,512] to [512,10]), and
  reshapes the bias ([10] to [1,10]) and the width ([1] to [1,1]). Each result, read at an index, is ONE element of
  the launched argument: the transposed centres at (f, h) are the centres at (h, f), the transposed weights at (h, o)
  the weights at (o, h), the bias row at (0, o) the bias at o, and the width cell at (0, 0) the width's one element.
-/
import proofs.«177060_j45002667327625_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.Rbf

open Idealize.ShloMosaic Idealize.ShloMosaic.TcCoe Idealize.SL.Sem Idealize.ShloMosaic.StableHlo
open Cert.KernelIdeal Cert.KernelIdeal.Gen ValueIdx

variable (m : (ℓ : Loc nD τ sig) → Buf (Elt Ideal) ℓ) (c : Dev nD)

/-! ## The arrays as the operations' terms -/

/-- The transposed centres are the transpose of the launched centres. -/
theorem V_centresT_eq :
    (V (F := Ideal) m c main_v0 : S128x512.Idx → EReal)
      = transpose S128x512 [1, 0] (m ((c : Thread nD τ).loc main_arg1) : S512x128.Idx → EReal)
          transposes_S512x128_S128x512_1_0 := by
  dsimp only [Gen.V, Gen.hostOps0]; after_results

/-- The transposed weights are the transpose of the launched weights. -/
theorem V_weightsT_eq :
    (V (F := Ideal) m c main_v1 : S512x10.Idx → EReal)
      = transpose S512x10 [1, 0] (m ((c : Thread nD τ).loc main_arg3) : S10x512.Idx → EReal)
          transposes_S10x512_S512x10_1_0 := by
  dsimp only [Gen.V, Gen.hostOps0]; after_results

/-- The bias row is the launched bias cast to one row. -/
theorem V_biasRow_eq :
    (V (F := Ideal) m c main_v2 : S1x10.Idx → EReal)
      = shapeCast S1x10 (m ((c : Thread nD τ).loc main_arg4) : S10.Idx → EReal) shapeCasts_S10_S1x10 := by
  dsimp only [Gen.V, Gen.hostOps0]; after_results; rfl

/-- The width cell is the launched width cast to one row of one column. -/
theorem V_width_eq :
    (V (F := Ideal) m c main_v3 : S1x1.Idx → EReal)
      = shapeCast S1x1 (m ((c : Thread nD τ).loc main_arg2) : S1.Idx → EReal) shapeCasts_S1_S1x1 := by
  dsimp only [Gen.V, Gen.hostOps0]; after_results; rfl

/-! ## The arrays at an index -/

/-- The transposed centres at (f, h) are the centres at (h, f). -/
theorem V_centresT (f : Fin 128) (h : Fin 512) :
    (V (F := Ideal) m c main_v0 : S128x512.Idx → EReal) (ix2 f h)
      = (m ((c : Thread nD τ).loc main_arg1) : S512x128.Idx → EReal) (ix2 h f) := by
  rw [V_centresT_eq]
  exact transpose_ix2_apply _ transposes_S512x128_S128x512_1_0 f h

/-- The transposed weights at (h, o) are the weights at (o, h). -/
theorem V_weightsT (h : Fin 512) (o : Fin 10) :
    (V (F := Ideal) m c main_v1 : S512x10.Idx → EReal) (ix2 h o)
      = (m ((c : Thread nD τ).loc main_arg3) : S10x512.Idx → EReal) (ix2 o h) := by
  rw [V_weightsT_eq]
  exact transpose_ix2_apply _ transposes_S10x512_S512x10_1_0 h o

/-- The bias row at (0, o) is the bias at o. -/
theorem V_biasRow (o : Fin 10) :
    (V (F := Ideal) m c main_v2 : S1x10.Idx → EReal) (ix2 0 o)
      = (m ((c : Thread nD τ).loc main_arg4) : S10.Idx → EReal) (ix1 o) := by
  rw [V_biasRow_eq]
  exact shapeCast_a_1a_apply _ shapeCasts_S10_S1x10 0 o

/-- The width cell at (0, 0) is the width's one element. -/
theorem V_width :
    (V (F := Ideal) m c main_v3 : S1x1.Idx → EReal) (ix2 0 0)
      = (m ((c : Thread nD τ).loc main_arg2) : S1.Idx → EReal) (ix1 0) := by
  rw [V_width_eq]
  exact shapeCast_a_1a_apply _ shapeCasts_S1_S1x1 0 0

end Cert.Rbf

end
-- ==== Proof.RefEntry.lean ====
/-
  The reference program's result, read at one index, is the direct spelling of the radial-basis-function entry.

  The reference broadcasts the inputs and the centres to a common rank-3 array, subtracts, squares, sums over the
  feature axis onto the zero word, negates, divides by 2·(s·s) with s the one element of the width, exponentiates,
  contracts against the transposed output weights over the centre axis and adds the broadcast bias. Read at the
  index (r, o) every broadcast, transpose and reshape picks ONE element of its operand, so the result is
      Σ_h exp (−(0 + Σ_f (x r f − c h f)²) / (2·(s·s))) · W o h + b o,
  which is `directEntry` at row r of the inputs, the centres, row o of the weights, b o and s.
-/
import proofs.«177060_j45002667327625_2_alg».proof.Proof.Gen.ReferenceIdeal.Read
import proofs.«177060_j45002667327625_2_alg».proof.Proof.RbfMath
import Idealize.ShloMosaic.Lib.ValueIdx
import Idealize.ShloMosaic.Lib.Pipeline.Value

noncomputable section

namespace Cert.Rbf

open Idealize.ShloMosaic Idealize.ShloMosaic.StableHlo
open Cert.ReferenceIdeal Cert.ReferenceIdeal.Read ValueIdx

variable [Cert.ReferenceIdeal.Facts]

/-! ## The composed index functions at coordinates -/

/-- The left operand of the contraction at result index (r, o) and contraction coordinate h is read at (r, h). -/
theorem lidx15_ix (r : Fin 2048) (o : Fin 10) (h : Fin 512) : lidx_main_v15 (ix2 r o) h = ix2 r h :=
  funext fun a => Fin.ext (by match a with | ⟨0, _⟩ => rfl | ⟨1, _⟩ => rfl)

/-- The right operand of the contraction at result index (r, o) and contraction coordinate h is read at (h, o). -/
theorem ridx15_ix (r : Fin 2048) (o : Fin 10) (h : Fin 512) : ridx_main_v15 (ix2 r o) h = ix2 h o :=
  funext fun a => Fin.ext (by match a with | ⟨0, _⟩ => rfl | ⟨1, _⟩ => rfl)

/-- The feature sum at (r, h) and feature f reads the rank-3 array at (r, h, f). -/
theorem idx6_ix (r : Fin 2048) (h : Fin 512) (f : Fin 128) : idx_main_v6 (ix2 r h) f = ix3 r h f :=
  funext fun a => Fin.ext (by match a with | ⟨0, _⟩ => rfl | ⟨1, _⟩ => rfl | ⟨2, _⟩ => rfl)

/-- The two broadcasts of the inputs read (r, h, f) at (r, f). -/
theorem idx0_idx2_ix (r : Fin 2048) (h : Fin 512) (f : Fin 128) : idx_main_v0 (idx_main_v2 (ix3 r h f)) = ix2 r f :=
  funext fun a => Fin.ext (by match a with | ⟨0, _⟩ => rfl | ⟨1, _⟩ => rfl)

/-- The two broadcasts of the centres read (r, h, f) at (h, f). -/
theorem idx1_idx3_ix (r : Fin 2048) (h : Fin 512) (f : Fin 128) : idx_main_v1 (idx_main_v3 (ix3 r h f)) = ix2 h f :=
  funext fun a => Fin.ext (by match a with | ⟨0, _⟩ => rfl | ⟨1, _⟩ => rfl)

/-- The transpose of the weights reads (h, o) at (o, h). -/
theorem idx14_ix (h : Fin 512) (o : Fin 10) : idx_main_v14 (ix2 h o) = ix2 o h :=
  funext fun a => Fin.ext (by match a with | ⟨0, _⟩ => rfl | ⟨1, _⟩ => rfl)

/-- The two broadcasts of the bias read (r, o) at o. -/
theorem idx16_idx17_ix (r : Fin 2048) (o : Fin 10) : idx_main_v16 (idx_main_v17 (ix2 r o)) = ix1 o :=
  funext fun a => Fin.ext (by match a with | ⟨0, _⟩ => rfl)

/-! ## The stages at coordinates -/

/-- The squared distance stage at (r, h): the zero word plus the sum over the features of the squared differences. -/
theorem sqdist_read (x0 : FVec Ideal S2048x128 .f32) (x1 : FVec Ideal S512x128 .f32) (r : Fin 2048) (h : Fin 512) :
    val_main_v6 (F := Ideal) x0 x1 (ix2 r h)
      = Ideal.ofBits .f32 0x00000000#32 + ∑ f : Fin 128, (x0 (ix2 r f) - x1 (ix2 h f)) * (x0 (ix2 r f) - x1 (ix2 h f)) := by
  rw [val_main_v6_apply, val_main_cst_apply, Ideal.ofBits_def]
  refine congrArg (_ + ·) (Finset.sum_congr rfl fun f _ => ?_)
  rw [idx6_ix, val_main_v5_apply, val_main_v4_apply, val_main_v2_apply, val_main_v0_apply, val_main_v3_apply,
    val_main_v1_apply, idx0_idx2_ix, idx1_idx3_ix, Ideal.subf_def, Ideal.mulf_def]

/-- The width reshaped to rank 0 reads the width's one element. -/
theorem width_read (x2 : FVec Ideal S1 .f32) (i : S_.Idx) : val_main_v8 (F := Ideal) x2 i = x2 (ix1 0) := by
  unfold val_main_v8
  refine shapeCast_apply x2 _ i (ix1 0) ?_
  have h1 : S_.numel = 1 := Shape.numel_eq_one (fun a => a.elim0)
  have h2 := (S_.rowMajor i).isLt
  rw [Shape.rowMajor_val_one]
  show 0 = (S_.rowMajor i).val
  omega

/-- The divisor stage at any index: 2·(s·s) with s the width's one element. -/
theorem divisor_read (x2 : FVec Ideal S1 .f32) (i : S2048x512.Idx) :
    val_main_v11 (F := Ideal) x2 i = Ideal.ofBits .f32 0x40000000#32 * (x2 (ix1 0) * x2 (ix1 0)) := by
  rw [val_main_v11_apply, val_main_v10_apply, val_main_cst_0_apply, val_main_v9_apply, width_read, Ideal.ofBits_def,
    Ideal.mulf_def, Ideal.mulf_def]

/-- The activation stage at (r, h). -/
theorem act_read (x0 : FVec Ideal S2048x128 .f32) (x1 : FVec Ideal S512x128 .f32) (x2 : FVec Ideal S1 .f32)
    (r : Fin 2048) (h : Fin 512) :
    val_main_v13 (F := Ideal) x0 x1 x2 (ix2 r h)
      = Ideal.exp (Ideal.div
          (-(Ideal.ofBits .f32 0x00000000#32 + ∑ f : Fin 128, (x0 (ix2 r f) - x1 (ix2 h f)) * (x0 (ix2 r f) - x1 (ix2 h f))))
          (Ideal.ofBits .f32 0x40000000#32 * (x2 (ix1 0) * x2 (ix1 0)))) := by
  rw [val_main_v13_apply, val_main_v12_apply, val_main_v7_apply, sqdist_read, divisor_read, Ideal.hostUnary_exp_def,
    Ideal.hostDivf_def, Ideal.hostNegf_def, Ideal.negf_def]

/-- The transposed weights at (h, o). -/
theorem weight_read (x3 : FVec Ideal S10x512 .f32) (h : Fin 512) (o : Fin 10) :
    val_main_v14 (F := Ideal) x3 (ix2 h o) = x3 (ix2 o h) := by
  rw [val_main_v14_apply, idx14_ix]

/-- The broadcast bias at (r, o). -/
theorem bias_read (x4 : FVec Ideal S10 .f32) (r : Fin 2048) (o : Fin 10) :
    val_main_v17 (F := Ideal) x4 (ix2 r o) = x4 (ix1 o) := by
  rw [val_main_v17_apply, val_main_v16_apply, idx16_idx17_ix]

/-! ## The result at an index -/

/-- The reference's result at (r, o) is the direct spelling of the entry. -/
theorem ref_entry (x0 : FVec Ideal S2048x128 .f32) (x1 : FVec Ideal S512x128 .f32) (x2 : FVec Ideal S1 .f32)
    (x3 : FVec Ideal S10x512 .f32) (x4 : FVec Ideal S10 .f32) (r : Fin 2048) (o : Fin 10) :
    val_main_v18 (F := Ideal) x0 x1 x2 x3 x4 (ix2 r o)
      = directEntry (fun f : Fin 128 => x0 (ix2 r f)) (fun (h : Fin 512) (f : Fin 128) => x1 (ix2 h f))
          (fun h : Fin 512 => x3 (ix2 o h)) (x4 (ix1 o)) (x2 (ix1 0)) := by
  unfold directEntry
  rw [val_main_v18_apply, val_main_v15_apply, bias_read, Ideal.addf_def]
  refine congrArg (· + _) (Finset.sum_congr rfl fun h _ => ?_)
  rw [lidx15_ix, ridx15_ix, act_read, weight_read]

end Cert.Rbf

end
-- ==== Proof.Finite.lean ====
/-
  The input precondition decoded. The precondition is a conjunction of one-bit words: for each of the five float
  arguments, the conjunction over all its entries of `|a| < +∞`, and, for the width, the conjunction over its one entry
  of `σ ≠ 0`. On the extended reals `|a|` is `max a (-a)`, the word of `+∞` denotes `⊤` and the zero word denotes
  `0`; an extended real with `max a (-a) < ⊤` is neither `⊤` nor `⊥`, hence a real. So when the precondition answers 1,
  every entry of the inputs and of the centres is a real and the width is a nonzero real.
-/
import proofs.«177060_j45002667327625_2_alg».proof.Pre_finite_inputs
import Idealize.ShloMosaic.Lib.ValueIdx
import Idealize.ShloMosaic.Lib.ReduceAll
import Idealize.ShloMosaic.PureOps.Ideal.Laws

noncomputable section

namespace Cert.Rbf

open Idealize.ShloMosaic Idealize.ShloMosaic.ValueIdx
open Cert.Pre_finite_inputs

namespace Finite

/-- The scalar shape has one index. -/
instance subsingleton_scalarIdx : Subsingleton S_.Idx := ⟨fun a b => funext fun d => d.elim0⟩

/-- The word of `+∞` denotes the top of the extended reals. -/
theorem ofBits_inf : Ideal.ofBits .f32 0x7F800000#32 = (⊤ : EReal) := by
  simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word built from a decision is 1 exactly when the decision holds. -/
theorem ofBool_eq_one (b : Bool) : BitVec.ofBool b = 1#1 ↔ b = true := by cases b <;> decide

/-- The comparison `|x| < +∞` answering 1 makes `x` a real. -/
theorem real_of_cmp_abs (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- The comparison `x ≠ 0` against the zero word (the unordered spelling answers as the ordered one: there is no
    unordered pair of extended reals) answering 1 makes `x` nonzero. -/
theorem ne_zero_of_cmp (x : EReal)
    (h : Ideal.cmp .une x (Ideal.ofBits .f32 0x00000000#32) = 1#1) : x ≠ 0 := by
  rw [Ideal.ofBits_zero_f32] at h
  unfold Ideal.cmp at h
  rw [ofBool_eq_one] at h
  exact of_decide_eq_true h

/-- The conjunction over all entries of `|a| < +∞` answering 1 makes every entry of `a` a real: the and-reduction
    over all axes gives the comparison at each index, and the comparison there reads `max (a i) (-(a i)) < ⊤`. -/
theorem entries_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf (F := Ideal) a) (broadcastInDim s ![] hb (constant (F := Ideal) S_ .f32 0x7F800000#32)))
        (constantI S_ 1 1#1) hr hu ix0 = 1#1) (i : s.Idx) : ∃ r : ℝ, a i = (r : EReal) :=
  real_of_cmp_abs (a i) (Host.reduce_andi_all _ _ hr hu ix0 e i)

/-- The conjunction over all entries of `a ≠ 0` answering 1 makes every entry of `a` nonzero. -/
theorem entries_ne_zero {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .une a (broadcastInDim s ![] hb (constant (F := Ideal) S_ .f32 0x00000000#32)))
        (constantI S_ 1 1#1) hr hu ix0 = 1#1) (i : s.Idx) : a i ≠ (0 : EReal) :=
  ne_zero_of_cmp (a i) (Host.reduce_andi_all _ _ hr hu ix0 e i)

end Finite

open Finite

variable [Cert.Pre_finite_inputs.Facts]

/-- THE PRECONDITION DECODED: every entry of the inputs `a0` and of the centres `a1` is a real, and the width's one
    entry is a nonzero real. (The weights `a3` and the bias `a4` are finite too, which is not needed.) -/
theorem pre_decoded (a0 : FVec Ideal S2048x128 .f32) (a1 : FVec Ideal S512x128 .f32) (a2 : FVec Ideal S1 .f32)
    (a3 : FVec Ideal S10x512 .f32) (a4 : FVec Ideal S10 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
      (∃ r : ℝ, a2 (ValueIdx.ix1 0) = (r : EReal) ∧ r ≠ 0) := by
  have e := congrFun h ValueIdx.ix0
  dsimp only [Cert.Pre_finite_inputs.fn, Cert.Pre_finite_inputs.fn_part1] at e
  -- the conjunction of six one-bit words is 1: each of them is
  simp only [andi, IntOp.andi_eq_one] at e
  obtain ⟨⟨⟨⟨⟨e0, e1⟩, e2⟩, -⟩, -⟩, e5⟩ := e
  refine ⟨entries_real a0 _ _ _ e0, entries_real a1 _ _ _ e1, ?_⟩
  -- the width: a real by its finiteness, and that real is not 0 because the entry is not
  obtain ⟨r, hr⟩ := entries_real a2 _ _ _ e2 (ix1 0)
  refine ⟨r, hr, fun h0 => ?_⟩
  refine entries_ne_zero a2 _ _ _ e5 (ix1 0) ?_
  rw [hr, h0]; rfl

end Cert.Rbf

end
-- ==== Proof.Result.lean ====
/-
  The result as one function of the argument arrays, and the two programs' values against it.

  `result` is the layer read directly: entry `(r, o)` is Σ_h exp (−‖x_r − c_h‖² / (2σ²)) · W[o,h] + b[o] in the direct spelling.
  The reference's last stage is `result` of its arguments as it stands. The kernel's output array is the expanded spelling over
  the arrays its windows stage — the inputs, the centres and the weights transposed, the bias as a row, the width as a
  one-entry array —, which the law of the two spellings turns into `result` once the inputs and the centres are real and the
  width is a nonzero real: exactly what the precondition says.
-/
import proofs.«177060_j45002667327625_2_alg».proof.Proof.Blocks
import proofs.«177060_j45002667327625_2_alg».proof.Proof.HostSide
import proofs.«177060_j45002667327625_2_alg».proof.Proof.RefEntry
import proofs.«177060_j45002667327625_2_alg».proof.Proof.Finite

noncomputable section

namespace Cert.Rbf

open Idealize.ShloMosaic Idealize.ShloMosaic.ValueIdx

/-- The layer's output as one function of the five argument arrays, index by index. -/
def result (a0 : (⟨2, ![2048, 128]⟩ : Shape).Idx → EReal) (a1 : (⟨2, ![512, 128]⟩ : Shape).Idx → EReal)
    (a2 : (⟨1, ![1]⟩ : Shape).Idx → EReal) (a3 : (⟨2, ![10, 512]⟩ : Shape).Idx → EReal)
    (a4 : (⟨1, ![10]⟩ : Shape).Idx → EReal) : (⟨2, ![2048, 10]⟩ : Shape).Idx → EReal := fun i =>
  directEntry (fun f : Fin 128 => a0 (ix2 (⟨(i 0).val, idx2_lt0 i⟩ : Fin 2048) f)) (fun (h : Fin 512) (f : Fin 128) => a1 (ix2 h f))
    (fun h : Fin 512 => a3 (ix2 (⟨(i 1).val, idx2_lt1 i⟩ : Fin 10) h)) (a4 (ix1 (⟨(i 1).val, idx2_lt1 i⟩ : Fin 10)))
    (a2 (ix1 (0 : Fin 1)))

section reference

open Cert.ReferenceIdeal

variable [Cert.ReferenceIdeal.Facts]

/-- The reference's last stage is `result` of its arguments. -/
theorem ref_value (x0 : FVec Ideal S2048x128 .f32) (x1 : FVec Ideal S512x128 .f32) (x2 : FVec Ideal S1 .f32)
    (x3 : FVec Ideal S10x512 .f32) (x4 : FVec Ideal S10 .f32) :
    Cert.ReferenceIdeal.Read.val_main_v18 (F := Ideal) x0 x1 x2 x3 x4 = result x0 x1 x2 x3 x4 := by
  funext i
  obtain ⟨r, o, rfl⟩ : ∃ (r : Fin 2048) (o : Fin 10), i = ix2 r o := ⟨i 0, i 1, eq_ix2 i⟩
  exact ref_entry x0 x1 x2 x3 x4 r o

end reference

section kernel

open Cert.KernelIdeal Cert.KernelIdeal.Gen Idealize.ShloMosaic.TcCoe Idealize.SL.Sem

variable [Cert.Pre_finite_inputs.Facts]

/-- Under the precondition the kernel's output array after the run is `result` of the argument arrays. -/
theorem kernel_value (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (dats m 0 c).arrAt 5 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  obtain ⟨hx, hc, hs⟩ := pre_decoded _ _ _ _ _ hpre
  rw [array_eq]
  funext i
  unfold stagedOut result
  -- the staged arrays, read where the entry reads them, in terms of the arguments
  have e0 : (fun f : Fin 128 => V m c main_arg0 (ix2 (⟨(i 0).val, idx2_lt0 i⟩ : Fin 2048) f))
      = fun f : Fin 128 => m ((c : Thread nD τ).loc main_arg0) (ix2 (⟨(i 0).val, idx2_lt0 i⟩ : Fin 2048) f) :=
    funext fun f => congrFun (V_main_arg0 m c) _
  have e1 : (fun (f : Fin 128) (h : Fin 512) => V m c main_v0 (ix2 f h))
      = fun (f : Fin 128) (h : Fin 512) => m ((c : Thread nD τ).loc main_arg1) (ix2 h f) :=
    funext fun f => funext fun h => V_centresT m c f h
  have e2 : (fun h : Fin 512 => V m c main_v1 (ix2 h (⟨(i 1).val, idx2_lt1 i⟩ : Fin 10)))
      = fun h : Fin 512 => m ((c : Thread nD τ).loc main_arg3) (ix2 (⟨(i 1).val, idx2_lt1 i⟩ : Fin 10) h) :=
    funext fun h => V_weightsT m c h _
  have e3 := V_biasRow m c (⟨(i 1).val, idx2_lt1 i⟩ : Fin 10)
  have e4 := V_width m c
  refine (congr (congr (congr (congr (congrArg (expandedEntry (ι := Fin 128) (κ := Fin 512)) e0) e1) e2) e3) e4).trans ?_
  exact expanded_eq_direct (fun f : Fin 128 => m ((c : Thread nD τ).loc main_arg0) (ix2 (⟨(i 0).val, idx2_lt0 i⟩ : Fin 2048) f))
    (fun (f : Fin 128) (h : Fin 512) => m ((c : Thread nD τ).loc main_arg1) (ix2 h f))
    (fun h : Fin 512 => m ((c : Thread nD τ).loc main_arg3) (ix2 (⟨(i 1).val, idx2_lt1 i⟩ : Fin 10) h))
    (m ((c : Thread nD τ).loc main_arg4) (ix1 (⟨(i 1).val, idx2_lt1 i⟩ : Fin 10)))
    (m ((c : Thread nD τ).loc main_arg2) (ix1 (0 : Fin 1))) (fun f => hx _) (fun f h => hc _) hs

end kernel

end Cert.Rbf

end
-- ==== Proof.lean ====
/-
  A radial-basis-function layer: out[r, o] = Σ_h exp (−‖x_r − c_h‖² / (2σ²)) · W[o, h] + b[o], for inputs x : [2048, 128], centres
  c : [512, 128], a width σ : [1], output weights W : [10, 512] and a bias b : [10].

  The kernel works on blocks of 1024 rows. It takes the squared distance in the expanded form ‖x_r‖² + ‖c_h‖² − 2·x_r·c_h (a row
  sum, a column sum of the transposed centres, a matrix product), clamps it below at 0, multiplies by −1 / ((2σ)σ), exponentiates and
  applies the output layer as a second matrix product (through a narrower float format, the identity on the extended reals) plus
  the bias row. The reference sums (x_r − c_h)² directly, negates, divides by 2·(σ·σ), exponentiates and applies the output layer.

  On the extended reals the two agree when the inputs and the centres are real and the width is a nonzero real
  (Proof/RbfMath.lean: the binomial law summed over the features needs real terms; the clamp is idle on a sum of squares; a
  quotient by a nonzero real is the product with the reciprocal). At σ = 0 they differ — the kernel forms 0 · (−1/0), the
  reference 0/0, whenever a row coincides with a centre — so the precondition asks, besides finiteness, that σ ≠ 0: the
  reference itself divides by 2σ².

  The pieces: Proof/KernelEntry.lean reads the body's stored value at an entry; Proof/Blocks.lean goes from the two blocks to the
  whole output array; Proof/HostSide.lean reads the transposes and reshapes done before the kernel; Proof/RefEntry.lean reads the
  reference's last stage at an entry; Proof/Finite.lean decodes the precondition; Proof/Result.lean states both values as one
  function of the arguments. The frames are the generated ones; the idealization rewrote nothing, so `preserves` is `True`.
-/
import proofs.«177060_j45002667327625_2_alg».proof.Defs
import proofs.«177060_j45002667327625_2_alg».proof.Proof.Gen.Kernel
import proofs.«177060_j45002667327625_2_alg».proof.Proof.Gen.Kernel.Skeleton
import proofs.«177060_j45002667327625_2_alg».proof.Proof.Gen.Kernel.Launch
import proofs.«177060_j45002667327625_2_alg».proof.Proof.Gen.Kernel.Points
import proofs.«177060_j45002667327625_2_alg».proof.Proof.Gen.Kernel.Frame
import proofs.«177060_j45002667327625_2_alg».proof.Proof.Gen.KernelIdeal
import proofs.«177060_j45002667327625_2_alg».proof.Proof.Gen.KernelIdeal.Skeleton
import proofs.«177060_j45002667327625_2_alg».proof.Proof.Gen.KernelIdeal.Launch
import proofs.«177060_j45002667327625_2_alg».proof.Proof.Gen.KernelIdeal.Points
import proofs.«177060_j45002667327625_2_alg».proof.Proof.Gen.KernelIdeal.Frame
import proofs.«177060_j45002667327625_2_alg».proof.Proof.Gen.ReferenceIdeal
import proofs.«177060_j45002667327625_2_alg».proof.Proof.Gen.Pre_finite_inputs
import proofs.«177060_j45002667327625_2_alg».proof.Proof.Gen.KernelIdeal.Value
import proofs.«177060_j45002667327625_2_alg».proof.Proof.Gen.ReferenceIdeal.Run
import proofs.«177060_j45002667327625_2_alg».proof.Proof.Gen.ReferenceIdeal.Read
import proofs.«177060_j45002667327625_2_alg».proof.Proof.Result
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both programs end with `Rbf.result` of the arguments: the
    kernel's output array by `Rbf.kernel_value`, the reference's last stage by `Rbf.ref_value`. -/
theorem algebraic : Cert.algebraic_KernelIdeal_ReferenceIdeal := by
  intro m ρ m' ρ' hpre hagree
  refine ⟨_, (θ_run Cert.KernelIdeal.defs _ _).mono
      (fun r h c => ⟨(h c).1.trans (Cert.Rbf.kernel_value m c (hpre c)), (h c).2⟩)
      (Cert.KernelIdeal.Value.run_blocks (F := Ideal) m ρ), ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v18_eq, Cert.Rbf.ref_value, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
